-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536x32 : Shape := ⟨2, ![65536, 32]⟩
abbrev S65536x16 : Shape := ⟨2, ![65536, 16]⟩
abbrev S256x288 : Shape := ⟨2, ![256, 288]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S65536x32 : S_.BroadcastsInDim S65536x32 (![] : Fin 0 → Fin S65536x32.rank)
  reducesTo_S65536x32_S_d0_1 : S65536x32.ReducesTo [0, 1] S_
  bcast_S_S65536x16 : S_.BroadcastsInDim S65536x16 (![] : Fin 0 → Fin S65536x16.rank)
  reducesTo_S65536x16_S_d0_1 : S65536x16.ReducesTo [0, 1] S_
  bcast_S_S256x288 : S_.BroadcastsInDim S256x288 (![] : Fin 0 → Fin S256x288.rank)
  reducesTo_S256x288_S_d0_1 : S256x288.ReducesTo [0, 1] S_

variable [Facts]

def fn_part1 {F : FTy → Type} [FloatOps F] (main_v13 : IVec S_ 1) (main_v16 : IVec S256x288 1) : IVec S_ 1 :=
  let main_c_5 : IVec S_ 1 := constantI S_ 1 1#1
  let main_v17 : IVec S_ 1 := (fun x v => Host.reduce IntOp.andi x v reducesTo_S256x288_S_d0_1 h_S_) main_v16 main_c_5
  let main_v18 : IVec S_ 1 := andi main_v13 main_v17
  main_v18

def fn {F : FTy → Type} [FloatOps F] (main_arg0 : FVec F S65536x256 .f32) (main_arg1 : FVec F S65536x32 .f32) (main_arg2 : FVec F S65536x16 .f32) (main_arg3 : FVec F S256x288 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x32 .f32 := Host.absf main_arg1
  let main_cst_0 : FVec F S_ .f32 := constant S_ .f32 0x7F800000#32
  let main_v5 : FVec F S65536x32 .f32 := broadcastInDim S65536x32 ![] bcast_S_S65536x32 main_cst_0
  let main_v6 : IVec S65536x32 1 := cmpf .olt main_v4 main_v5
  let main_c_1 : IVec S_ 1 := constantI S_ 1 1#1
  let main_v7 : IVec S_ 1 := (fun x v => Host.reduce IntOp.andi x v reducesTo_S65536x32_S_d0_1 h_S_) main_v6 main_c_1
  let main_v8 : IVec S_ 1 := andi main_v3 main_v7
  let main_v9 : FVec F S65536x16 .f32 := Host.absf main_arg2
  let main_cst_2 : FVec F S_ .f32 := constant S_ .f32 0x7F800000#32
  let main_v10 : FVec F S65536x16 .f32 := broadcastInDim S65536x16 ![] bcast_S_S65536x16 main_cst_2
  let main_v11 : IVec S65536x16 1 := cmpf .olt main_v9 main_v10
  let main_c_3 : IVec S_ 1 := constantI S_ 1 1#1
  let main_v12 : IVec S_ 1 := (fun x v => Host.reduce IntOp.andi x v reducesTo_S65536x16_S_d0_1 h_S_) main_v11 main_c_3
  let main_v13 : IVec S_ 1 := andi main_v8 main_v12
  let main_v14 : FVec F S256x288 .f32 := Host.absf main_arg3
  let main_cst_4 : FVec F S_ .f32 := constant S_ .f32 0x7F800000#32
  let main_v15 : FVec F S256x288 .f32 := broadcastInDim S256x288 ![] bcast_S_S256x288 main_cst_4
  let main_v16 : IVec S256x288 1 := cmpf .olt main_v14 main_v15
  fn_part1 (F := F) main_v13 main_v16
-- ==== Kernel.lean ====
abbrev S65536x256 : Shape := ⟨2, ![65536, 256]⟩
abbrev S65536x32 : Shape := ⟨2, ![65536, 32]⟩
abbrev S65536x16 : Shape := ⟨2, ![65536, 16]⟩
abbrev S256x288 : Shape := ⟨2, ![256, 288]⟩
abbrev S256x16 : Shape := ⟨2, ![256, 16]⟩
abbrev S16x256 : Shape := ⟨2, ![16, 256]⟩
abbrev S256x240 : Shape := ⟨2, ![256, 240]⟩
abbrev S240x256 : Shape := ⟨2, ![240, 256]⟩
abbrev S256x32 : Shape := ⟨2, ![256, 32]⟩
abbrev S32x256 : Shape := ⟨2, ![32, 256]⟩
abbrev S8192x256 : Shape := ⟨2, ![8192, 256]⟩
abbrev S8192x32 : Shape := ⟨2, ![8192, 32]⟩
abbrev S8192x16 : Shape := ⟨2, ![8192, 16]⟩
abbrev S8192x240 : Shape := ⟨2, ![8192, 240]⟩

abbrev nBuf : Space → Nat
  | .hbm => 12
  | .vmem => 13
  | .smem => 0
  | _ => 0

abbrev bufTy : (tb : Table) → Fin (tcTables nBuf tb) → BufTy
  | .hbm, ⟨0, _⟩ => ⟨S65536x256, .f32⟩
  | .hbm, ⟨1, _⟩ => ⟨S65536x32, .f32⟩
  | .hbm, ⟨2, _⟩ => ⟨S65536x16, .f32⟩
  | .hbm, ⟨3, _⟩ => ⟨S256x288, .f32⟩
  | .hbm, ⟨4, _⟩ => ⟨S256x16, .f32⟩
  | .hbm, ⟨5, _⟩ => ⟨S16x256, .f32⟩
  | .hbm, ⟨6, _⟩ => ⟨S256x240, .f32⟩
  | .hbm, ⟨7, _⟩ => ⟨S240x256, .f32⟩
  | .hbm, ⟨8, _⟩ => ⟨S256x32, .f32⟩
  | .hbm, ⟨9, _⟩ => ⟨S32x256, .f32⟩
  | .hbm, ⟨10, _⟩ => ⟨S65536x256, .f32⟩
  | .hbm, ⟨11, _⟩ => ⟨S65536x16, .f32⟩
  | .local _ .vmem, ⟨0, _⟩ => ⟨S8192x256, .f32⟩
  | .local _ .vmem, ⟨1, _⟩ => ⟨S8192x256, .f32⟩
  | .local _ .vmem, ⟨2, _⟩ => ⟨S8192x32, .f32⟩
  | .local _ .vmem, ⟨3, _⟩ => ⟨S8192x32, .f32⟩
  | .local _ .vmem, ⟨4, _⟩ => ⟨S8192x16, .f32⟩
  | .local _ .vmem, ⟨5, _⟩ => ⟨S8192x16, .f32⟩
  | .local _ .vmem, ⟨6, _⟩ => ⟨S16x256, .f32⟩
  | .local _ .vmem, ⟨7, _⟩ => ⟨S240x256, .f32⟩
  | .local _ .vmem, ⟨8, _⟩ => ⟨S32x256, .f32⟩
  | .local _ .vmem, ⟨9, _⟩ => ⟨S8192x256, .f32⟩
  | .local _ .vmem, ⟨10, _⟩ => ⟨S8192x256, .f32⟩
  | .local _ .vmem, ⟨11, _⟩ => ⟨S8192x16, .f32⟩
  | .local _ .vmem, ⟨12, _⟩ => ⟨S8192x16, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S240x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8192x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S256x288_S256x16_0_0 : S256x288.Slices ![0, 0] S256x16
  transposes_S256x16_S16x256_1_0 : S256x16.Transposes [1, 0] S16x256
  slices_S256x288_S256x240_0_16 : S256x288.Slices ![0, 16] S256x240
  transposes_S256x240_S240x256_1_0 : S256x240.Transposes [1, 0] S240x256
  slices_S256x288_S256x32_0_256 : S256x288.Slices ![0, 256] S256x32
  transposes_S256x32_S32x256_1_0 : S256x32.Transposes [1, 0] S32x256
  inb_S8192x256_S8192x256_0_0 : ∀ a, (![0, 0] : Fin 2 → Nat) a + S8192x256.size a ≤ S8192x256.size a
  h_S8192x256 : 0 < S8192x256.numel
  inb_S8192x32_S8192x32_0_0 : ∀ a, (![0, 0] : Fin 2 → Nat) a + S8192x32.size a ≤ S8192x32.size a
  h_S8192x32 : 0 < S8192x32.numel
  inb_S8192x16_S8192x16_0_0 : ∀ a, (![0, 0] : Fin 2 → Nat) a + S8192x16.size a ≤ S8192x16.size a
  h_S8192x16 : 0 < S8192x16.numel
  slices_S8192x256_o0_0_S8192x16 : S8192x256.Slices ![0, 0] S8192x16
  slices_S8192x256_o0_16_S8192x240 : S8192x256.Slices ![0, 16] S8192x240
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S240x256_S240x256_0_0 : ∀ a, (![0, 0] : Fin 2 → Nat) a + S240x256.size a ≤ S240x256.size a
  h_S240x256 : 0 < S240x256.numel
  shapeCasts_S240x256_S240x256 : S240x256.ShapeCasts S240x256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  dot_S8192x16_S16x256_S8192x256_1_0_0_1_n_n_wf : DotDims.WF S8192x16 S16x256 S8192x256 [1] [0] [0] [1] [] []
  dot_S8192x240_S240x256_S8192x256_1_0_0_1_n_n_wf : DotDims.WF S8192x240 S240x256 S8192x256 [1] [0] [0] [1] [] []
  dot_S8192x32_S32x256_S8192x256_1_0_0_1_n_n_wf : DotDims.WF S8192x32 S32x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S65536x256.size a
  hwx0_0 : ∀ i : grid0.Coords, EltTy.bits .f32 = 32 ∨ (Rect.block (s := S65536x256) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x32.size a ≤ S65536x32.size a
  hwx0_1 : ∀ i : grid0.Coords, EltTy.bits .f32 = 32 ∨ (Rect.block (s := S65536x32) S8192x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x16.size a ≤ S65536x16.size a
  hwx0_2 : ∀ i : grid0.Coords, EltTy.bits .f32 = 32 ∨ (Rect.block (s := S65536x16) S8192x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x256.size a ≤ S16x256.size a
  hwx0_3 : ∀ i : grid0.Coords, EltTy.bits .f32 = 32 ∨ (Rect.block (s := S16x256) S16x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S240x256.size a ≤ S240x256.size a
  hwx0_4 : ∀ i : grid0.Coords, EltTy.bits .f32 = 32 ∨ (Rect.block (s := S240x256) S240x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x256.size a ≤ S32x256.size a
  hwx0_5 : ∀ i : grid0.Coords, EltTy.bits .f32 = 32 ∨ (Rect.block (s := S32x256) S32x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8192x256.size a ≤ S65536x256.size a
  hwx0_6 : ∀ i : grid0.Coords, EltTy.bits .f32 = 32 ∨ (Rect.block (s := S65536x256) S8192x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x16.size a ≤ S65536x16.size a
  hwx0_7 : ∀ i : grid0.Coords, EltTy.bits .f32 = 32 ∨ (Rect.block (s := S65536x16) S8192x16.size (cc0_transform_7 i) (hinb0_7 i)).WholeWords (EltTy.packing .f32)

variable [Facts₀]

def dot_S8192x16_S16x256_S8192x256_1_0_0_1_n_n : DotDims S8192x16 S16x256 S8192x256 where
  lhsContracting := [1]
  rhsContracting := [0]
  lhsNonContracting := [0]
  rhsNonContracting := [1]
  lhsBatch := []
  rhsBatch := []
  wf := dot_S8192x16_S16x256_S8192x256_1_0_0_1_n_n_wf
def dot_S8192x240_S240x256_S8192x256_1_0_0_1_n_n : DotDims S8192x240 S240x256 S8192x256 where
  lhsContracting := [1]
  rhsContracting := [0]
  lhsNonContracting := [0]
  rhsNonContracting := [1]
  lhsBatch := []
  rhsBatch := []
  wf := dot_S8192x240_S240x256_S8192x256_1_0_0_1_n_n_wf
def dot_S8192x32_S32x256_S8192x256_1_0_0_1_n_n : DotDims S8192x32 S32x256 S8192x256 where
  lhsContracting := [1]
  rhsContracting := [0]
  lhsNonContracting := [0]
  rhsNonContracting := [1]
  lhsBatch := []
  rhsBatch := []
  wf := dot_S8192x32_S32x256_S8192x256_1_0_0_1_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S240x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S32x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S8192x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S8192x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x256 : Shape := ⟨2, ![65536, 256]⟩
abbrev S65536x32 : Shape := ⟨2, ![65536, 32]⟩
abbrev S65536x16 : Shape := ⟨2, ![65536, 16]⟩
abbrev S256x288 : Shape := ⟨2, ![256, 288]⟩
abbrev S65536x240 : Shape := ⟨2, ![65536, 240]⟩
abbrev S65536x288 : Shape := ⟨2, ![65536, 288]⟩
abbrev S288x256 : Shape := ⟨2, ![288, 256]⟩

abbrev nBuf : Space → Nat
  | .hbm => 12
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x32, .f32⟩
  | .hbm, ⟨2, _⟩ => ⟨S65536x16, .f32⟩
  | .hbm, ⟨3, _⟩ => ⟨S256x288, .f32⟩
  | .hbm, ⟨4, _⟩ => ⟨S65536x16, .f32⟩
  | .hbm, ⟨5, _⟩ => ⟨S65536x16, .f32⟩
  | .hbm, ⟨6, _⟩ => ⟨S65536x16, .f32⟩
  | .hbm, ⟨7, _⟩ => ⟨S65536x240, .f32⟩
  | .hbm, ⟨8, _⟩ => ⟨S65536x288, .f32⟩
  | .hbm, ⟨9, _⟩ => ⟨S65536x288, .f32⟩
  | .hbm, ⟨10, _⟩ => ⟨S288x256, .f32⟩
  | .hbm, ⟨11, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  slices_S65536x256_S65536x16_0_0 : S65536x256.Slices ![0, 0] S65536x16
  slices_S65536x256_S65536x240_0_16 : S65536x256.Slices ![0, 16] S65536x240
  concatenates_S65536x16_S65536x240_S65536x32_S65536x288_d1 : Shape.Concatenates [S65536x16, S65536x240, S65536x32] S65536x288 1
  transposes_S256x288_S288x256_1_0 : S256x288.Transposes [1, 0] S288x256
  dot_S65536x288_S288x256_S65536x256_1_0_0_1_n_n_wf : DotDims.WF S65536x288 S288x256 S65536x256 [1] [0] [0] [1] [] []

variable [Facts₀]

def dot_S65536x288_S288x256_S65536x256_1_0_0_1_n_n : DotDims S65536x288 S288x256 S65536x256 where
  lhsContracting := [1]
  rhsContracting := [0]
  lhsNonContracting := [0]
  rhsNonContracting := [1]
  lhsBatch := []
  rhsBatch := []
  wf := dot_S65536x288_S288x256_S65536x256_1_0_0_1_n_n_wf

class Facts : Prop extends Facts₀ where

variable [Facts]
-- ==== Proof.Finite.lean ====
/-
  From the precondition to real entries. The precondition is jnp.all(|x| < +inf) of each of the four argument arrays,
  conjoined; read at the extended reals, |x| is max x (-x), so each entry of each array is neither infinity, that is, a
  real number. Used for the state and the observation: the law s - (s - o) = o needs both real.
-/
import proofs.«114528_j83322365543010_2_alg».proof.Proof.Gen.Pre_finite_inputs
import Idealize.ShloMosaic.PureOps.Ideal.Laws
import Idealize.ShloMosaic.Lib.ReduceAll
import Idealize.ShloMosaic.Lib.ValueIdx

noncomputable section

namespace Cert.Hcnn

open Idealize.ShloMosaic Idealize.ShloMosaic.ValueIdx

/-- The bit pattern the precondition compares against is +inf. -/
theorem inf_word : Ideal.ofBits .f32 0x7F800000#32 = (⊤ : EReal) := by
  simp [Ideal.ofBits, Ideal.ieee]

/-- An extended real whose absolute value max x (-x) is below +inf is a real. -/
theorem real_of_abs_lt_top (x : EReal) (h : max x (-x) < ⊤) : ∃ r : ℝ, x = (r : EReal) := by
  induction x using EReal.rec with
  | bot => simp at h
  | top => simp at h
  | coe r => exact ⟨r, rfl⟩

/-- The comparison the precondition makes of one entry, read back. -/
theorem real_of_cmp (x : EReal) (h : Ideal.cmp .olt (max x (-x)) (Ideal.ofBits .f32 0x7F800000#32) = 1#1) :
    ∃ r : ℝ, x = (r : EReal) := by
  rw [inf_word] at h
  refine real_of_abs_lt_top x ?_
  by_contra hn
  simp [Ideal.cmp, hn] at h

instance : Subsingleton (Cert.Pre_finite_inputs.S_).Idx := ⟨fun a b => funext fun d => d.elim0⟩

/-- Under the precondition every entry of the state and of the observation is a real number. -/
theorem real_entries (x0 : FVec Ideal Cert.Pre_finite_inputs.S65536x256 .f32) (x1 : FVec Ideal Cert.Pre_finite_inputs.S65536x32 .f32)
    (x2 : FVec Ideal Cert.Pre_finite_inputs.S65536x16 .f32) (x3 : FVec Ideal Cert.Pre_finite_inputs.S256x288 .f32)
    (h : Cert.Pre_finite_inputs.fn (F := Ideal) x0 x1 x2 x3 = fun _ => 1#1) :
    (∀ i, ∃ r : ℝ, x0 i = (r : EReal)) ∧ (∀ i, ∃ r : ℝ, x2 i = (r : EReal)) := by
  have h0 := congrFun h ix0
  dsimp only [Cert.Pre_finite_inputs.fn, Cert.Pre_finite_inputs.fn_part1] at h0
  obtain ⟨h012, -⟩ := IntOp.andi_eq_one.1 h0
  obtain ⟨h01, hobs⟩ := IntOp.andi_eq_one.1 h012
  obtain ⟨hstate, -⟩ := IntOp.andi_eq_one.1 h01
  exact ⟨fun i => real_of_cmp _ (Host.reduce_andi_all _ _ _ _ ix0 hstate i),
    fun i => real_of_cmp _ (Host.reduce_andi_all _ _ _ _ ix0 hobs i)⟩

end Cert.Hcnn

end
-- ==== Proof.Spec.lean ====
/-
  The specification of the two results, as functions of the four argument arrays over the extended reals.

  With B = 65536 rows, a state of 256 columns, 32 known features and 16 observed columns, and a weight A of
  256 × 288 entries:

    error[b, j]     = state[b, j] - obs[b, j]                                   (j < 16)
    new_state[b, n] = (Σ_{k<16}  tanh(obs[b, k])        · A[n, k]
                     + Σ_{k<240} tanh(state[b, 16 + k]) · A[n, 16 + k])
                     + Σ_{k<32}  tanh(known[b, k])      · A[n, 256 + k]

  The second line is one row of tanh(pre) · Aᵀ with pre = [obs | state[:, 16:] | known], its contraction over the 288
  columns of A cut into the three bands the columns of pre come from. Also here: the two laws that join the other
  spelling of the same numbers to this one — a sum over 288 indices is the sum of its three bands (any commutative
  monoid), and s - (s - o) = o on the reals (it fails at the infinities of the extended reals, which is where the
  finiteness of the inputs is used).
-/
import Idealize.ShloMosaic.PureOps.Ideal
import Idealize.ShloMosaic.Lib.ValueIdx

noncomputable section

namespace Cert.Hcnn

open Idealize.ShloMosaic Idealize.ShloMosaic.ValueIdx

/-- Column `k` of the observed band, as a column of the state. -/
abbrev headCol (k : Fin 16) : Fin 256 := ⟨k.val, by have := k.isLt; omega⟩
/-- Column `k` of the state's tail (its columns 16 … 255), as a column of the state. -/
abbrev tailCol (k : Fin 240) : Fin 256 := ⟨16 + k.val, by have := k.isLt; omega⟩
/-- The three bands of the weight's 288 columns: the observed band, the state's tail, the known features. -/
abbrev wHead (k : Fin 16) : Fin 288 := ⟨k.val, by have := k.isLt; omega⟩
abbrev wTail (k : Fin 240) : Fin 288 := ⟨16 + k.val, by have := k.isLt; omega⟩
abbrev wKnown (k : Fin 32) : Fin 288 := ⟨256 + k.val, by have := k.isLt; omega⟩

/-- The teacher-forcing error: the state's first 16 columns less the observation. -/
def tfError (state : (⟨2, ![65536, 256]⟩ : Shape).Idx → EReal) (obs : (⟨2, ![65536, 16]⟩ : Shape).Idx → EReal) :
    (⟨2, ![65536, 16]⟩ : Shape).Idx → EReal :=
  fun i => state (ix2 (i 0) (headCol (i 1))) - obs i

/-- One entry of the new state: row `b` of tanh [obs | state tail | known] against row `n` of the weight, band by band. -/
def newStateAt (state : (⟨2, ![65536, 256]⟩ : Shape).Idx → EReal) (known : (⟨2, ![65536, 32]⟩ : Shape).Idx → EReal)
    (obs : (⟨2, ![65536, 16]⟩ : Shape).Idx → EReal) (A : (⟨2, ![256, 288]⟩ : Shape).Idx → EReal)
    (b : Fin 65536) (n : Fin 256) : EReal :=
  (∑ k : Fin 16, Ideal.tanh (obs (ix2 b k)) * A (ix2 n (wHead k))
    + ∑ k : Fin 240, Ideal.tanh (state (ix2 b (tailCol k))) * A (ix2 n (wTail k)))
  + ∑ k : Fin 32, Ideal.tanh (known (ix2 b k)) * A (ix2 n (wKnown k))

/-- The new state as an array. -/
def newState (state : (⟨2, ![65536, 256]⟩ : Shape).Idx → EReal) (known : (⟨2, ![65536, 32]⟩ : Shape).Idx → EReal)
    (obs : (⟨2, ![65536, 16]⟩ : Shape).Idx → EReal) (A : (⟨2, ![256, 288]⟩ : Shape).Idx → EReal) :
    (⟨2, ![65536, 256]⟩ : Shape).Idx → EReal :=
  fun i => newStateAt state known obs A (i 0) (i 1)

/-- A sum over the 288 columns is the sum of its three bands, in the grouping the three partial products are added in. -/
theorem sum_bands {M : Type*} [AddCommMonoid M] (f : Fin 288 → M) :
    ∑ k : Fin 288, f k = (∑ k : Fin 16, f (wHead k) + ∑ k : Fin 240, f (wTail k)) + ∑ k : Fin 32, f (wKnown k) := by
  have h1 : ∑ k : Fin 288, f k = ∑ k : Fin 256, f (Fin.castAdd 32 k) + ∑ k : Fin 32, f (Fin.natAdd 256 k) :=
    Fin.sum_univ_add (a := 256) (b := 32) f
  have h2 : ∑ k : Fin 256, f (Fin.castAdd 32 k)
      = ∑ k : Fin 16, f (Fin.castAdd 32 (Fin.castAdd 240 k)) + ∑ k : Fin 240, f (Fin.castAdd 32 (Fin.natAdd 16 k)) :=
    Fin.sum_univ_add (a := 16) (b := 240) fun k => f (Fin.castAdd 32 k)
  rw [h1, h2]
  rfl

/-- On the reals, taking from `s` the difference `s - o` leaves `o`. -/
theorem sub_sub_self_coe (s o : ℝ) : ((s : EReal) - ((s : EReal) - (o : EReal))) = (o : EReal) := by
  rw [← EReal.coe_sub, ← EReal.coe_sub, sub_sub_cancel]

end Cert.Hcnn

end
-- ==== Proof.LibPlainMatmul.lean ====
/-
  A kernel's plain matrix product read at an entry, at the extended reals.
-/
import Idealize.ShloMosaic.Lib.StackMember
import Idealize.ShloMosaic.Lib.KernelVsHost

noncomputable section

namespace Cert.LibPlainMatmul

open Idealize.ShloMosaic Idealize.ShloMosaic.ValueIdx

/-- The product of an m×k block by a k×n block (rows by columns, no batch axis) accumulated into the zero block: its
    entry (a, b) is the sum over the contracted coordinate of the products of the entries — the accumulator adds nothing
    and, on the extended reals, nothing is rounded and no order of the summands is left. Generic in the three extents,
    the two operand formats and the precision key. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

end Cert.LibPlainMatmul

end
-- ==== Proof.KernelPayload.lean ====
/-
  What one grid point computes, entry by entry, at the extended reals.

  The body holds a block of 8192 rows of each streamed array and the three transposed bands of the weight. Its first
  store is (tanh obs · W₁ + tanh state[:, 16:] · W₂) + tanh known · W₃, three plain matrix products into zero accumulators,
  so its entry (r, n) is the three contractions added in that grouping; its second store is state[:, :16] - obs.
-/
import proofs.«114528_j83322365543010_2_alg».proof.Proof.Gen.KernelIdeal.Skeleton
import proofs.«114528_j83322365543010_2_alg».proof.Proof.Spec
import proofs.«114528_j83322365543010_2_alg».proof.Proof.LibPlainMatmul
import Idealize.ShloMosaic.Lib.Pipeline.Value

noncomputable section

namespace Cert.Hcnn

open Cert.KernelIdeal Cert.KernelIdeal.Gen Idealize.ShloMosaic Idealize.ShloMosaic.ValueIdx

/-- Entry (r, n) of the block of the new state a grid point stores: the three bands' contractions, in the order the body
    adds the partial products. -/
theorem newState_payload (v0 : Vec Ideal S8192x256 .f32) (v1 : Vec Ideal S8192x32 .f32) (v2 : Vec Ideal S8192x16 .f32)
    (v9 : Vec Ideal S16x256 .f32) (v12 : Vec Ideal S240x256 .f32) (v16 : Vec Ideal S32x256 .f32) (r : Fin 8192) (n : Fin 256) :
    k0_pay2 (F := Ideal) v0 v1 v2 v9 v12 v16 (ix2 r n)
      = (∑ k : Fin 16, Ideal.tanh (v2 (ix2 r k)) * v9 (ix2 k n)
          + ∑ k : Fin 240, Ideal.tanh (v0 (ix2 r (tailCol k))) * v12 (ix2 k n))
        + ∑ k : Fin 32, Ideal.tanh (v1 (ix2 r k)) * v16 (ix2 k n) := by
  unfold k0_pay2
  simp only [shapeCast_self]
  show matmul (DotDims.plain 8192 16 256) none (tanh v2) v9 (constant (F := Ideal) ⟨2, ![8192, 256]⟩ .f32 0x00000000#32) (ix2 r n)
      + matmul (DotDims.plain 8192 240 256) none (tanh (extractStridedSlice S8192x240 ![0, 16] v0 slices_S8192x256_o0_16_S8192x240)) v12
          (constant (F := Ideal) ⟨2, ![8192, 256]⟩ .f32 0x00000000#32) (ix2 r n)
      + matmul (DotDims.plain 8192 32 256) none (tanh v1) v16 (constant (F := Ideal) ⟨2, ![8192, 256]⟩ .f32 0x00000000#32) (ix2 r n) = _
  rw [LibPlainMatmul.matmul_plain_zero_apply, LibPlainMatmul.matmul_plain_zero_apply, LibPlainMatmul.matmul_plain_zero_apply]
  refine congrArg₂ (· + ·) (congrArg₂ (· + ·) rfl (Finset.sum_congr rfl fun k _ => ?_)) rfl
  show Ideal.tanh (extractStridedSlice S8192x240 ![0, 16] v0 slices_S8192x256_o0_16_S8192x240 (ix2 r k)) * v12 (ix2 k n) = _
  rw [extractStridedSlice_apply ![0, 16] v0 slices_S8192x256_o0_16_S8192x240 (ix2 r k) (ix2 r (tailCol k)) (fun a => match a with
    | ⟨0, _⟩ => by show r.val = 0 + r.val; omega
    | ⟨1, _⟩ => by show 16 + k.val = 16 + k.val; rfl)]

/-- Entry (r, j) of the block of the error a grid point stores: the state's column j less the observation's. -/
theorem tfError_payload (v0 : Vec Ideal S8192x256 .f32) (v2 : Vec Ideal S8192x16 .f32) (r : Fin 8192) (j : Fin 16) :
    k0_pay1 (F := Ideal) v0 v2 (ix2 r j) = v0 (ix2 r (headCol j)) - v2 (ix2 r j) := by
  unfold k0_pay1
  show extractStridedSlice S8192x16 ![0, 0] v0 slices_S8192x256_o0_0_S8192x16 (ix2 r j) - v2 (ix2 r j) = _
  rw [extractStridedSlice_apply ![0, 0] v0 slices_S8192x256_o0_0_S8192x16 (ix2 r j) (ix2 r (headCol j)) (fun a => match a with
    | ⟨0, _⟩ => by show r.val = 0 + r.val; omega
    | ⟨1, _⟩ => by show j.val = 0 + j.val; omega)]

end Cert.Hcnn

end
-- ==== Proof.KernelValue.lean ====
/-
  From the blocks to the two result arrays.

  The grid has 8 points; point t stages rows 8192·t … 8192·t + 8191 of the state, the known features and the
  observation, the three transposed bands of the weight whole, and writes back the same rows of the two results. So
  entry (8192·t + r, n) of the new state is what point t's body left at (r, n) of its block, which — each staged block
  read back as rows of its argument, each weight band as columns of the weight — is the specification's entry; the 8
  blocks cover every row, hence the whole array is the specification's. The same for the error.
-/
import proofs.«114528_j83322365543010_2_alg».proof.Proof.Gen.KernelIdeal.Value
import proofs.«114528_j83322365543010_2_alg».proof.Proof.KernelPayload
import Idealize.ShloMosaic.Lib.Pipeline.Value
import Idealize.ShloMosaic.Lib.StableHlo.Run
import Idealize.ShloMosaic.Lib.Tactic

noncomputable section

namespace Cert.Hcnn

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-- The block index of every streamed window at point t is (t, 0); of every weight band, (0, 0). -/
theorem block_indices : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

theorem point_lt (t : Fin cfg0.N) : t.val < 8 := lt_of_lt_of_eq t.isLt N_0

/-- Row r of point t's blocks, as a row of the arrays. -/
abbrev rowAt (t : Fin cfg0.N) (r : Fin 8192) : Fin 65536 := ⟨t.val * 8192 + r.val, by have := point_lt t; have := r.isLt; omega⟩

/-! ## The staged blocks, read back -/

theorem state_block (c : Dev nD) (t : Fin cfg0.N) (r : Fin 8192) (k : Fin 256) :
    (iblk m c 0 t : Vec Ideal S8192x256 .f32) (ix2 r k)
      = (m ((c : Thread nD τ).loc main_arg0) : S65536x256.Idx → EReal) (ix2 (rowAt t r) k) := by
  obtain ⟨⟨e0, e1⟩, -⟩ := block_indices t
  unfold iblk
  rw [View.read_apply]
  show V m c main_arg0 _ = _
  rw [V_main_arg0]
  refine congrArg _ (funext fun a => Fin.ext ?_)
  match a with
  | ⟨0, _⟩ => show win0_0.index t (0 : Fin 2) * 8192 + 1 * r.val = t.val * 8192 + r.val; rw [e0]; omega
  | ⟨1, _⟩ => show win0_0.index t (1 : Fin 2) * 256 + 1 * k.val = k.val; rw [e1]; omega

theorem known_block (c : Dev nD) (t : Fin cfg0.N) (r : Fin 8192) (k : Fin 32) :
    (iblk m c 1 t : Vec Ideal S8192x32 .f32) (ix2 r k)
      = (m ((c : Thread nD τ).loc main_arg1) : S65536x32.Idx → EReal) (ix2 (rowAt t r) k) := by
  obtain ⟨-, ⟨e0, e1⟩, -⟩ := block_indices t
  unfold iblk
  rw [View.read_apply]
  show V m c main_arg1 _ = _
  rw [V_main_arg1]
  refine congrArg _ (funext fun a => Fin.ext ?_)
  match a with
  | ⟨0, _⟩ => show win0_1.index t (0 : Fin 2) * 8192 + 1 * r.val = t.val * 8192 + r.val; rw [e0]; omega
  | ⟨1, _⟩ => show win0_1.index t (1 : Fin 2) * 32 + 1 * k.val = k.val; rw [e1]; omega

theorem obs_block (c : Dev nD) (t : Fin cfg0.N) (r : Fin 8192) (k : Fin 16) :
    (iblk m c 2 t : Vec Ideal S8192x16 .f32) (ix2 r k)
      = (m ((c : Thread nD τ).loc main_arg2) : S65536x16.Idx → EReal) (ix2 (rowAt t r) k) := by
  obtain ⟨-, -, ⟨e0, e1⟩, -⟩ := block_indices t
  unfold iblk
  rw [View.read_apply]
  show V m c main_arg2 _ = _
  rw [V_main_arg2]
  refine congrArg _ (funext fun a => Fin.ext ?_)
  match a with
  | ⟨0, _⟩ => show win0_2.index t (0 : Fin 2) * 8192 + 1 * r.val = t.val * 8192 + r.val; rw [e0]; omega
  | ⟨1, _⟩ => show win0_2.index t (1 : Fin 2) * 16 + 1 * k.val = k.val; rw [e1]; omega

/-! ## The weight's bands: sliced and transposed before the grid, staged whole -/

/-- The observed band as the grid finds it: columns 0 … 15 of the weight, transposed. -/
theorem headBand_array (c : Dev nD) : (V m c main_v1 : S16x256.Idx → EReal)
    = transpose S16x256 [1, 0] (extractStridedSlice S256x16 ![0, 0] (m ((c : Thread nD τ).loc main_arg3)) slices_S256x288_S256x16_0_0)
        transposes_S256x16_S16x256_1_0 := by
  dsimp only [Gen.V, Gen.hostOps0]; after_results

/-- The state-tail band: columns 16 … 255 of the weight, transposed. -/
theorem tailBand_array (c : Dev nD) : (V m c main_v3 : S240x256.Idx → EReal)
    = transpose S240x256 [1, 0] (extractStridedSlice S256x240 ![0, 16] (m ((c : Thread nD τ).loc main_arg3)) slices_S256x288_S256x240_0_16)
        transposes_S256x240_S240x256_1_0 := by
  dsimp only [Gen.V, Gen.hostOps0]; after_results

/-- The known-features band: columns 256 … 287 of the weight, transposed. -/
theorem knownBand_array (c : Dev nD) : (V m c main_v5 : S32x256.Idx → EReal)
    = transpose S32x256 [1, 0] (extractStridedSlice S256x32 ![0, 256] (m ((c : Thread nD τ).loc main_arg3)) slices_S256x288_S256x32_0_256)
        transposes_S256x32_S32x256_1_0 := by
  dsimp only [Gen.V, Gen.hostOps0]; after_results

theorem headBand_block (c : Dev nD) (t : Fin cfg0.N) (k : Fin 16) (n : Fin 256) :
    (iblk m c 3 t : Vec Ideal S16x256 .f32) (ix2 k n)
      = (m ((c : Thread nD τ).loc main_arg3) : S256x288.Idx → EReal) (ix2 n (wHead k)) := by
  obtain ⟨-, -, -, ⟨e0, e1⟩, -⟩ := block_indices t
  unfold iblk
  rw [View.read_apply]
  show V m c main_v1 _ = _
  have he : ((cfg0.win 3).blk t).view.emb (ix2 k n) = (ix2 k n : S16x256.Idx) := funext fun a => Fin.ext (by
    match a with
    | ⟨0, _⟩ => show win0_3.index t (0 : Fin 2) * 16 + 1 * k.val = k.val; rw [e0]; omega
    | ⟨1, _⟩ => show win0_3.index t (1 : Fin 2) * 256 + 1 * n.val = n.val; rw [e1]; omega)
  rw [he, headBand_array]
  refine (transpose_apply [1, 0] _ transposes_S256x16_S16x256_1_0 (ix2 k n) (ix2 n k) (fun b => match b with
    | ⟨0, _⟩ => rfl
    | ⟨1, _⟩ => rfl)).trans ?_
  exact extractStridedSlice_apply ![0, 0] _ slices_S256x288_S256x16_0_0 (ix2 n k) (ix2 n (wHead k)) (fun a => match a with
    | ⟨0, _⟩ => by show n.val = 0 + n.val; omega
    | ⟨1, _⟩ => by show k.val = 0 + k.val; omega)

theorem tailBand_block (c : Dev nD) (t : Fin cfg0.N) (k : Fin 240) (n : Fin 256) :
    (iblk m c 4 t : Vec Ideal S240x256 .f32) (ix2 k n)
      = (m ((c : Thread nD τ).loc main_arg3) : S256x288.Idx → EReal) (ix2 n (wTail k)) := by
  obtain ⟨-, -, -, -, ⟨e0, e1⟩, -⟩ := block_indices t
  unfold iblk
  rw [View.read_apply]
  show V m c main_v3 _ = _
  have he : ((cfg0.win 4).blk t).view.emb (ix2 k n) = (ix2 k n : S240x256.Idx) := funext fun a => Fin.ext (by
    match a with
    | ⟨0, _⟩ => show win0_4.index t (0 : Fin 2) * 240 + 1 * k.val = k.val; rw [e0]; omega
    | ⟨1, _⟩ => show win0_4.index t (1 : Fin 2) * 256 + 1 * n.val = n.val; rw [e1]; omega)
  rw [he, tailBand_array]
  refine (transpose_apply [1, 0] _ transposes_S256x240_S240x256_1_0 (ix2 k n) (ix2 n k) (fun b => match b with
    | ⟨0, _⟩ => rfl
    | ⟨1, _⟩ => rfl)).trans ?_
  exact extractStridedSlice_apply ![0, 16] _ slices_S256x288_S256x240_0_16 (ix2 n k) (ix2 n (wTail k)) (fun a => match a with
    | ⟨0, _⟩ => by show n.val = 0 + n.val; omega
    | ⟨1, _⟩ => by show 16 + k.val = 16 + k.val; rfl)

theorem knownBand_block (c : Dev nD) (t : Fin cfg0.N) (k : Fin 32) (n : Fin 256) :
    (iblk m c 5 t : Vec Ideal S32x256 .f32) (ix2 k n)
      = (m ((c : Thread nD τ).loc main_arg3) : S256x288.Idx → EReal) (ix2 n (wKnown k)) := by
  obtain ⟨-, -, -, -, -, ⟨e0, e1⟩, -⟩ := block_indices t
  unfold iblk
  rw [View.read_apply]
  show V m c main_v5 _ = _
  have he : ((cfg0.win 5).blk t).view.emb (ix2 k n) = (ix2 k n : S32x256.Idx) := funext fun a => Fin.ext (by
    match a with
    | ⟨0, _⟩ => show win0_5.index t (0 : Fin 2) * 32 + 1 * k.val = k.val; rw [e0]; omega
    | ⟨1, _⟩ => show win0_5.index t (1 : Fin 2) * 256 + 1 * n.val = n.val; rw [e1]; omega)
  rw [he, knownBand_array]
  refine (transpose_apply [1, 0] _ transposes_S256x32_S32x256_1_0 (ix2 k n) (ix2 n k) (fun b => match b with
    | ⟨0, _⟩ => rfl
    | ⟨1, _⟩ => rfl)).trans ?_
  exact extractStridedSlice_apply ![0, 256] _ slices_S256x288_S256x32_0_256 (ix2 n k) (ix2 n (wKnown k)) (fun a => match a with
    | ⟨0, _⟩ => by show n.val = 0 + n.val; omega
    | ⟨1, _⟩ => by show 256 + k.val = 256 + k.val; rfl)

/-! ## What each point writes back -/

/-- Point t writes back block t of the specification's new state. -/
theorem newState_flushed (c : Dev nD) (t : Fin cfg0.N) :
    (dats m 0 c).flushed 6 t = ((cfg0.win 6).blk t).view.read (Elt Ideal)
      (newState (m ((c : Thread nD τ).loc main_arg0)) (m ((c : Thread nD τ).loc main_arg1))
        (m ((c : Thread nD τ).loc main_arg2)) (m ((c : Thread nD τ).loc main_arg3))) := by
  obtain ⟨-, -, -, -, -, -, ⟨e0, e1⟩, -⟩ := block_indices t
  show (cfg0.win 6).cut (grid0.coords t) ((dats m 0 c).after 6 t) = _
  rw [after0_6]
  unfold out0_6
  rw [View.canon_unit_zero zero_off]
  simp only [View.ld_unit_zero (S := S8192x256) zero_off, View.ld_unit_zero (S := S8192x32) zero_off,
    View.ld_unit_zero (S := S8192x16) zero_off, View.ld_unit_zero (S := S16x256) zero_off,
    View.ld_unit_zero (S := S240x256) zero_off, View.ld_unit_zero (S := S32x256) zero_off]
  funext y
  obtain ⟨r, n, rfl⟩ : ∃ (r : Fin 8192) (n : Fin 256), y = ix2 r n := ⟨y 0, y 1, eq_ix2 (n0 := 8192) (n1 := 256) y⟩
  refine (newState_payload _ _ _ _ _ _ r n).trans ?_
  have he : ((cfg0.win 6).blk t).view.emb (ix2 r n) = (ix2 (rowAt t r) n : S65536x256.Idx) := funext fun a => Fin.ext (by
    match a with
    | ⟨0, _⟩ => show win0_6.index t (0 : Fin 2) * 8192 + 1 * r.val = t.val * 8192 + r.val; rw [e0]; omega
    | ⟨1, _⟩ => show win0_6.index t (1 : Fin 2) * 256 + 1 * n.val = n.val; rw [e1]; omega)
  rw [View.read_apply, he]
  show _ = newStateAt _ _ _ _ (rowAt t r) n
  unfold newStateAt
  simp only [state_block, known_block, obs_block, headBand_block, tailBand_block, knownBand_block]

/-- Point t writes back block t of the specification's error. -/
theorem tfError_flushed (c : Dev nD) (t : Fin cfg0.N) :
    (dats m 0 c).flushed 7 t = ((cfg0.win 7).blk t).view.read (Elt Ideal)
      (tfError (m ((c : Thread nD τ).loc main_arg0)) (m ((c : Thread nD τ).loc main_arg2))) := by
  obtain ⟨-, -, -, -, -, -, -, ⟨e0, e1⟩⟩ := block_indices t
  show (cfg0.win 7).cut (grid0.coords t) ((dats m 0 c).after 7 t) = _
  rw [after0_7]
  unfold out0_7
  rw [View.canon_unit_zero zero_off]
  simp only [View.ld_unit_zero (S := S8192x256) zero_off, View.ld_unit_zero (S := S8192x16) zero_off]
  funext y
  obtain ⟨r, j, rfl⟩ : ∃ (r : Fin 8192) (j : Fin 16), y = ix2 r j := ⟨y 0, y 1, eq_ix2 (n0 := 8192) (n1 := 16) y⟩
  refine (tfError_payload _ _ r j).trans ?_
  have he : ((cfg0.win 7).blk t).view.emb (ix2 r j) = (ix2 (rowAt t r) j : S65536x16.Idx) := funext fun a => Fin.ext (by
    match a with
    | ⟨0, _⟩ => show win0_7.index t (0 : Fin 2) * 8192 + 1 * r.val = t.val * 8192 + r.val; rw [e0]; omega
    | ⟨1, _⟩ => show win0_7.index t (1 : Fin 2) * 16 + 1 * j.val = j.val; rw [e1]; omega)
  rw [View.read_apply, he, state_block, obs_block]
  rfl

/-! ## The blocks cover the arrays -/

theorem mem_newState_block (t : Fin cfg0.N) (i : S65536x256.Idx) :
    i ∈ ((cfg0.win 6).blk t).view.set ↔ ∀ a : Fin 2, win0_6.index t a * S8192x256.size a ≤ (i a).val
      ∧ (i a).val < win0_6.index t a * S8192x256.size a + S8192x256.size a := by
  show i ∈ ((View.whole main_v6_0).slice (win0_6.rect t)).set ↔ _
  rw [View.set_slice_whole, Rect.mem_set_unit]
  exact Iff.rfl

theorem mem_tfError_block (t : Fin cfg0.N) (i : S65536x16.Idx) :
    i ∈ ((cfg0.win 7).blk t).view.set ↔ ∀ a : Fin 2, win0_7.index t a * S8192x16.size a ≤ (i a).val
      ∧ (i a).val < win0_7.index t a * S8192x16.size a + S8192x16.size a := by
  show i ∈ ((View.whole main_v6_1).slice (win0_7.rect t)).set ↔ _
  rw [View.set_slice_whole, Rect.mem_set_unit]
  exact Iff.rfl

/-- The point whose block holds row `x`. -/
abbrev pointOf (x : Nat) (hx : x < 65536) : Fin cfg0.N := ⟨x / 8192, by rw [show cfg0.N = 8 from N_0]; omega⟩

/-- Row i₀ of the new state lies in the block of point i₀ / 8192. -/
theorem newState_cover (i : S65536x256.Idx) :
    ∃ t : Fin cfg0.N, (cfg0.win 6).flush t = true ∧ i ∈ ((cfg0.win 6).blk t).view.set := by
  have hi0 : (i 0).val < 65536 := (i 0).isLt
  have hi1 : (i 1).val < 256 := (i 1).isLt
  refine ⟨pointOf (i 0).val hi0, flush0_6 _, ?_⟩
  obtain ⟨-, -, -, -, -, -, ⟨e0, e1⟩, -⟩ := block_indices (pointOf (i 0).val hi0)
  rw [mem_newState_block]
  intro a
  match a with
  | ⟨0, _⟩ =>
    show win0_6.index (pointOf (i 0).val hi0) (0 : Fin 2) * 8192 ≤ (i 0).val
      ∧ (i 0).val < win0_6.index (pointOf (i 0).val hi0) (0 : Fin 2) * 8192 + 8192
    rw [e0]; show (i 0).val / 8192 * 8192 ≤ (i 0).val ∧ (i 0).val < (i 0).val / 8192 * 8192 + 8192; omega
  | ⟨1, _⟩ =>
    show win0_6.index (pointOf (i 0).val hi0) (1 : Fin 2) * 256 ≤ (i 1).val
      ∧ (i 1).val < win0_6.index (pointOf (i 0).val hi0) (1 : Fin 2) * 256 + 256
    rw [e1]; omega

theorem tfError_cover (i : S65536x16.Idx) :
    ∃ t : Fin cfg0.N, (cfg0.win 7).flush t = true ∧ i ∈ ((cfg0.win 7).blk t).view.set := by
  have hi0 : (i 0).val < 65536 := (i 0).isLt
  have hi1 : (i 1).val < 16 := (i 1).isLt
  refine ⟨pointOf (i 0).val hi0, flush0_7 _, ?_⟩
  obtain ⟨-, -, -, -, -, -, -, ⟨e0, e1⟩⟩ := block_indices (pointOf (i 0).val hi0)
  rw [mem_tfError_block]
  intro a
  match a with
  | ⟨0, _⟩ =>
    show win0_7.index (pointOf (i 0).val hi0) (0 : Fin 2) * 8192 ≤ (i 0).val
      ∧ (i 0).val < win0_7.index (pointOf (i 0).val hi0) (0 : Fin 2) * 8192 + 8192
    rw [e0]; show (i 0).val / 8192 * 8192 ≤ (i 0).val ∧ (i 0).val < (i 0).val / 8192 * 8192 + 8192; omega
  | ⟨1, _⟩ =>
    show win0_7.index (pointOf (i 0).val hi0) (1 : Fin 2) * 16 ≤ (i 1).val
      ∧ (i 1).val < win0_7.index (pointOf (i 0).val hi0) (1 : Fin 2) * 16 + 16
    rw [e1]; omega

/-! ## The arrays after the run, and the run -/

theorem newState_final (c : Dev nD) : (dats m 0 c).arrAt 6 cfg0.N
    = newState (m ((c : Thread nD τ).loc main_arg0)) (m ((c : Thread nD τ).loc main_arg1))
        (m ((c : Thread nD τ).loc main_arg2)) (m ((c : Thread nD τ).loc main_arg3)) :=
  (dats m 0 c).arrAt_eq_of_cover 6 _ (fun t _ => newState_flushed m c t) newState_cover

theorem tfError_final (c : Dev nD) : (dats m 0 c).arrAt 7 cfg0.N
    = tfError (m ((c : Thread nD τ).loc main_arg0)) (m ((c : Thread nD τ).loc main_arg2)) :=
  (dats m 0 c).arrAt_eq_of_cover 7 _ (fun t _ => tfError_flushed m c t) tfError_cover

/-- Every weakly fair execution of the kernel's program ends with the two results at the specification's arrays of the
    arguments, the arguments unchanged. -/
theorem kernel_run : θ_run defs (onTc (τ := τ) (main (F := Ideal))) ⟨m, fun _ => 0, ρ⟩ fun r => ∀ c : Dev nD,
      r.2.mem ((c : Thread nD τ).loc main_v6_0)
        = newState (m ((c : Thread nD τ).loc main_arg0)) (m ((c : Thread nD τ).loc main_arg1))
            (m ((c : Thread nD τ).loc main_arg2)) (m ((c : Thread nD τ).loc main_arg3))
      ∧ r.2.mem ((c : Thread nD τ).loc main_v6_1)
        = tfError (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (newState_final m c), (h c).2.1.trans (tfError_final m c), (h c).2.2⟩)
    (Cert.KernelIdeal.Value.run_blocks m ρ)

end Cert.Hcnn

end
-- ==== Proof.RefValue.lean ====
/-
  The reference computes the specification.

  Its error is the state's first 16 columns less the observation, as specified. Its new state is tanh(pre) · Aᵀ for
  pre = [s - (s - obs) | state[:, 16:] | known] with s = state[:, :16]; the contraction over the 288 columns of A is the
  sum of its three bands, each band's column of pre read out of the concatenation, and where the state and the observation
  are real the first band's s - (s - obs) is obs. So, under the finiteness of those two arrays, the reference's new state is
  the specification's.
-/
import proofs.«114528_j83322365543010_2_alg».proof.Proof.Gen.ReferenceIdeal.Read
import proofs.«114528_j83322365543010_2_alg».proof.Proof.Spec

noncomputable section

namespace Cert.Hcnn

open Cert.ReferenceIdeal Cert.ReferenceIdeal.Read Idealize.ShloMosaic Idealize.ShloMosaic.ValueIdx

/-- The reference's error is the specification's. -/
theorem ref_tfError (x0 : (⟨S65536x256, .f32⟩ : BufTy).Contents (Elt Ideal)) (x2 : (⟨S65536x16, .f32⟩ : BufTy).Contents (Elt Ideal)) :
    val_main_v1 (F := Ideal) x0 x2 = tfError x0 x2 := by
  funext i
  rw [val_main_v1_apply, val_main_v0_apply]
  show x0 (idx_main_v0 i) - x2 i = x0 (ix2 (i 0) (headCol (i 1))) - x2 i
  refine congrArg (fun z => x0 z - x2 i) (funext fun a => Fin.ext ?_)
  match a with
  | ⟨0, _⟩ => rfl
  | ⟨1, _⟩ => rfl

/-! ## The columns of the pre-activation, band by band -/

/-- Columns 0 … 15 of the pre-activation are the first piece of the concatenation. -/
theorem pre_head (x0 : (⟨S65536x256, .f32⟩ : BufTy).Contents (Elt Ideal)) (x1 : (⟨S65536x32, .f32⟩ : BufTy).Contents (Elt Ideal))
    (x2 : (⟨S65536x16, .f32⟩ : BufTy).Contents (Elt Ideal)) (b : Fin 65536) (k : Fin 16) :
    val_main_v4 (F := Ideal) x0 x1 x2 (ix2 b (wHead k)) = val_main_v2 (F := Ideal) x0 x2 (ix2 b k) := by
  unfold val_main_v4
  exact concatenate_apply_piece (1 : Fin 2) _ _ (ix2 b (wHead k)) 0 (by show 0 < 3; omega) S65536x16 _ rfl rfl 0 rfl (ix2 b k)
    (fun a => match a with
      | ⟨0, _⟩ => fun _ => rfl
      | ⟨1, _⟩ => fun h => absurd rfl h)
    (by show 0 + k.val = k.val; omega)

/-- Columns 16 … 255 are the second piece: the state's tail. -/
theorem pre_tail (x0 : (⟨S65536x256, .f32⟩ : BufTy).Contents (Elt Ideal)) (x1 : (⟨S65536x32, .f32⟩ : BufTy).Contents (Elt Ideal))
    (x2 : (⟨S65536x16, .f32⟩ : BufTy).Contents (Elt Ideal)) (b : Fin 65536) (k : Fin 240) :
    val_main_v4 (F := Ideal) x0 x1 x2 (ix2 b (wTail k)) = val_main_v3 (F := Ideal) x0 (ix2 b k) := by
  unfold val_main_v4
  exact concatenate_apply_piece (1 : Fin 2) _ _ (ix2 b (wTail k)) 1 (by show 1 < 3; omega) S65536x240 _ rfl rfl 16 rfl (ix2 b k)
    (fun a => match a with
      | ⟨0, _⟩ => fun _ => rfl
      | ⟨1, _⟩ => fun h => absurd rfl h)
    (by show 16 + k.val = 16 + k.val; rfl)

/-- Columns 256 … 287 are the third piece: the known features. -/
theorem pre_known (x0 : (⟨S65536x256, .f32⟩ : BufTy).Contents (Elt Ideal)) (x1 : (⟨S65536x32, .f32⟩ : BufTy).Contents (Elt Ideal))
    (x2 : (⟨S65536x16, .f32⟩ : BufTy).Contents (Elt Ideal)) (b : Fin 65536) (k : Fin 32) :
    val_main_v4 (F := Ideal) x0 x1 x2 (ix2 b (wKnown k)) = x1 (ix2 b k) := by
  unfold val_main_v4
  exact concatenate_apply_piece (1 : Fin 2) _ _ (ix2 b (wKnown k)) 2 (by show 2 < 3; omega) S65536x32 _ rfl rfl 256 rfl (ix2 b k)
    (fun a => match a with
      | ⟨0, _⟩ => fun _ => rfl
      | ⟨1, _⟩ => fun h => absurd rfl h)
    (by show 256 + k.val = 256 + k.val; rfl)

/-- Where the state and the observation are real, the first piece s - (s - obs) is the observation. -/
theorem head_piece (x0 : (⟨S65536x256, .f32⟩ : BufTy).Contents (Elt Ideal)) (x2 : (⟨S65536x16, .f32⟩ : BufTy).Contents (Elt Ideal))
    (hs : ∀ i, ∃ r : ℝ, x0 i = (r : EReal)) (ho : ∀ i, ∃ r : ℝ, x2 i = (r : EReal)) (j : S65536x16.Idx) :
    val_main_v2 (F := Ideal) x0 x2 j = x2 j := by
  rw [val_main_v2_apply, val_main_v1_apply, val_main_v0_apply]
  obtain ⟨s, es⟩ := hs (idx_main_v0 j)
  obtain ⟨o, eo⟩ := ho j
  rw [es, eo]
  exact sub_sub_self_coe s o

/-- The reference's new state is the specification's, where the state and the observation are real. -/
theorem ref_newState (x0 : (⟨S65536x256, .f32⟩ : BufTy).Contents (Elt Ideal)) (x1 : (⟨S65536x32, .f32⟩ : BufTy).Contents (Elt Ideal))
    (x2 : (⟨S65536x16, .f32⟩ : BufTy).Contents (Elt Ideal)) (x3 : (⟨S256x288, .f32⟩ : BufTy).Contents (Elt Ideal))
    (hs : ∀ i, ∃ r : ℝ, x0 i = (r : EReal)) (ho : ∀ i, ∃ r : ℝ, x2 i = (r : EReal)) :
    val_main_v7 (F := Ideal) x0 x1 x2 x3 = newState x0 x1 x2 x3 := by
  funext i
  obtain ⟨b, n, rfl⟩ : ∃ (b : Fin 65536) (n : Fin 256), i = ix2 b n := ⟨i 0, i 1, eq_ix2 (n0 := 65536) (n1 := 256) i⟩
  rw [val_main_v7_apply, sum_bands]
  show _ = newStateAt x0 x1 x2 x3 b n
  unfold newStateAt
  refine congrArg₂ (· + ·) (congrArg₂ (· + ·) (Finset.sum_congr rfl fun k _ => ?_) (Finset.sum_congr rfl fun k _ => ?_))
    (Finset.sum_congr rfl fun k _ => ?_)
  · have hl : lidx_main_v7 (ix2 b n) (wHead k) = (ix2 b (wHead k) : S65536x288.Idx) := funext fun a => Fin.ext (by
      match a with
      | ⟨0, _⟩ => rfl
      | ⟨1, _⟩ => rfl)
    have hr : idx_main_v6 (ridx_main_v7 (ix2 b n) (wHead k)) = (ix2 n (wHead k) : S256x288.Idx) := funext fun a => Fin.ext (by
      match a with
      | ⟨0, _⟩ => rfl
      | ⟨1, _⟩ => rfl)
    rw [hl, val_main_v5_apply, pre_head, head_piece x0 x2 hs ho, val_main_v6_apply, hr]
    rfl
  · have hl : lidx_main_v7 (ix2 b n) (wTail k) = (ix2 b (wTail k) : S65536x288.Idx) := funext fun a => Fin.ext (by
      match a with
      | ⟨0, _⟩ => rfl
      | ⟨1, _⟩ => rfl)
    have hr : idx_main_v6 (ridx_main_v7 (ix2 b n) (wTail k)) = (ix2 n (wTail k) : S256x288.Idx) := funext fun a => Fin.ext (by
      match a with
      | ⟨0, _⟩ => rfl
      | ⟨1, _⟩ => rfl)
    have ht : idx_main_v3 (ix2 b k) = (ix2 b (tailCol k) : S65536x256.Idx) := funext fun a => Fin.ext (by
      match a with
      | ⟨0, _⟩ => rfl
      | ⟨1, _⟩ => rfl)
    rw [hl, val_main_v5_apply, pre_tail, val_main_v3_apply, ht, val_main_v6_apply, hr]
    rfl
  · have hl : lidx_main_v7 (ix2 b n) (wKnown k) = (ix2 b (wKnown k) : S65536x288.Idx) := funext fun a => Fin.ext (by
      match a with
      | ⟨0, _⟩ => rfl
      | ⟨1, _⟩ => rfl)
    have hr : idx_main_v6 (ridx_main_v7 (ix2 b n) (wKnown k)) = (ix2 n (wKnown k) : S256x288.Idx) := funext fun a => Fin.ext (by
      match a with
      | ⟨0, _⟩ => rfl
      | ⟨1, _⟩ => rfl)
    rw [hl, val_main_v5_apply, pre_known, val_main_v6_apply, hr]
    rfl

end Cert.Hcnn

end
-- ==== Proof.lean ====
/-
  The recurrent cell's step, tiled over rows, against its reference: both produce, on the extended reals,

    error[b, j]     = state[b, j] - obs[b, j]                                   (j < 16)
    new_state[b, n] = Σ_k tanh(pre[b, k]) · A[n, k],   pre = [obs | state[:, 16:] | known]   (k < 288)

  The tiled program never forms pre: it multiplies tanh of each of the three bands by the matching band of Aᵀ and adds
  the three partial products, 8192 rows per grid point (Proof/KernelPayload.lean, Proof/KernelValue.lean). The reference
  forms pre with its first band spelt state[:, :16] - (state[:, :16] - obs) and contracts over all 288 columns at once
  (Proof/RefValue.lean). The two agree because a sum over the 288 columns is the sum of its three bands, in any
  grouping, and because s - (s - o) = o where s and o are real — which is where the precondition (every input entry
  finite, Proof/Finite.lean) is used: at an infinite s the difference is not o. Both sides are stated against one
  specification (Proof/Spec.lean). The idealized program is the printed one read at the extended reals (no rewrite), so
  the preservation claim has nothing to state.
-/
import proofs.«114528_j83322365543010_2_alg».proof.Defs
import proofs.«114528_j83322365543010_2_alg».proof.Proof.Gen.Kernel
import proofs.«114528_j83322365543010_2_alg».proof.Proof.Gen.Kernel.Skeleton
import proofs.«114528_j83322365543010_2_alg».proof.Proof.Gen.Kernel.Launch
import proofs.«114528_j83322365543010_2_alg».proof.Proof.Gen.Kernel.Points
import proofs.«114528_j83322365543010_2_alg».proof.Proof.Gen.Kernel.Frame
import proofs.«114528_j83322365543010_2_alg».proof.Proof.Gen.KernelIdeal
import proofs.«114528_j83322365543010_2_alg».proof.Proof.Gen.KernelIdeal.Skeleton
import proofs.«114528_j83322365543010_2_alg».proof.Proof.Gen.KernelIdeal.Launch
import proofs.«114528_j83322365543010_2_alg».proof.Proof.Gen.KernelIdeal.Points
import proofs.«114528_j83322365543010_2_alg».proof.Proof.Gen.KernelIdeal.Frame
import proofs.«114528_j83322365543010_2_alg».proof.Proof.Gen.ReferenceIdeal
import proofs.«114528_j83322365543010_2_alg».proof.Proof.Gen.Pre_finite_inputs
import proofs.«114528_j83322365543010_2_alg».proof.Proof.Gen.KernelIdeal.Value
import proofs.«114528_j83322365543010_2_alg».proof.Proof.Gen.ReferenceIdeal.Run
import proofs.«114528_j83322365543010_2_alg».proof.Proof.Gen.ReferenceIdeal.Read
import proofs.«114528_j83322365543010_2_alg».proof.Proof.Finite
import proofs.«114528_j83322365543010_2_alg».proof.Proof.KernelValue
import proofs.«114528_j83322365543010_2_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments as they were. -/
theorem frame_kernel : Cert.frame_Kernel := fun m ρ _ => Cert.Kernel.Gen.frame m ρ

/-- So does the same program read at the extended reals. -/
theorem frame_kernelIdeal : Cert.frame_KernelIdeal := fun m ρ _ => Cert.KernelIdeal.Gen.frame m ρ

/-- The reference is a straight line of array operations: it runs, and writes no argument. -/
theorem frame_reference : Cert.frame_ReferenceIdeal := fun m ρ _ =>
  (θ_run Cert.ReferenceIdeal.defs _ _).mono (fun _ h c => (h c).2.2) (Cert.ReferenceIdeal.Value.run (F := Ideal) m ρ)

/-- Nothing was rewritten on the way to the extended reals. -/
theorem preserves : Cert.preserves_Kernel_KernelIdeal := trivial

/-- From arguments that agree and are finite, both programs end with the specification's new state and error. -/
theorem algebraic : Cert.algebraic_KernelIdeal_ReferenceIdeal := by
  intro m ρ m' ρ' hpre hagree
  refine ⟨fun c => Cert.Hcnn.newState (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    fun c => Cert.Hcnn.tfError (m ((c : Thread Cert.KernelIdeal.nD Cert.KernelIdeal.τ).loc Cert.KernelIdeal.main_arg0))
      (m ((c : Thread Cert.KernelIdeal.nD Cert.KernelIdeal.τ).loc Cert.KernelIdeal.main_arg2)),
    Cert.Hcnn.kernel_run m ρ, ?_⟩
  refine (θ_run Cert.ReferenceIdeal.defs _ _).mono (fun _ h c => ?_) (Cert.ReferenceIdeal.Value.run (F := Ideal) m' ρ')
  obtain ⟨hs, ho⟩ := Cert.Hcnn.real_entries _ _ _ _ (hpre c)
  obtain ⟨a0, a1, a2, a3⟩ := hagree c
  refine ⟨(h c).1.trans ?_, (h c).2.1.trans ?_, (h c).2.2⟩
  · rw [Cert.ReferenceIdeal.Read.val_main_v7_eq, a0, a1, a2, a3]
    exact Cert.Hcnn.ref_newState _ _ _ _ hs ho
  · rw [Cert.ReferenceIdeal.Read.val_main_v1_eq, a0, a2]
    exact Cert.Hcnn.ref_tfError _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
